-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4x2048x2048 : Shape := ⟨3, ![4, 2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn_part1 {F : FTy → Type} [FloatOps F] (main_arg4 : FVec F S4x2048x2048 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S4x2048x2048 .f32 := Host.absf main_arg4
  let main_cst_6 : FVec F S_ .f32 := constant S_ .f32 0x7F800000#32
  let main_v20 : FVec F S4x2048x2048 .f32 := broadcastInDim S4x2048x2048 ![] bcast_S_S4x2048x2048 main_cst_6
  let main_v21 : IVec S4x2048x2048 1 := cmpf .olt main_v19 main_v20
  let main_c_7 : IVec S_ 1 := constantI S_ 1 1#1
  let main_v22 : IVec S_ 1 := (fun x v => Host.reduce IntOp.andi x v reducesTo_S4x2048x2048_S_d0_1_2 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S4096x2048 .f32) (main_arg3 : FVec F S4x2048x2048 .f32) (main_arg4 : FVec F S4x2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_v13 main_v16
-- ==== Kernel.lean ====
abbrev S4096x2048 : Shape := ⟨2, ![4096, 2048]⟩
abbrev S4x2048x2048 : Shape := ⟨3, ![4, 2048, 2048]⟩
abbrev S4x4x512x2048 : Shape := ⟨4, ![4, 4, 512, 2048]⟩
abbrev S256x2048 : Shape := ⟨2, ![256, 2048]⟩
abbrev S256x512 : Shape := ⟨2, ![256, 512]⟩
abbrev S1x2048x2048 : Shape := ⟨3, ![1, 2048, 2048]⟩
abbrev S2048x2048 : Shape := ⟨2, ![2048, 2048]⟩

abbrev nBuf : Space → Nat
  | .hbm => 17
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048x2048, .f32⟩
  | .hbm, ⟨5, _⟩ => ⟨S4096x2048, .bf16⟩
  | .hbm, ⟨6, _⟩ => ⟨S4096x2048, .bf16⟩
  | .hbm, ⟨7, _⟩ => ⟨S4x2048x2048, .bf16⟩
  | .hbm, ⟨8, _⟩ => ⟨S4x4x512x2048, .bf16⟩
  | .hbm, ⟨9, _⟩ => ⟨S4x4x512x2048, .bf16⟩
  | .hbm, ⟨10, _⟩ => ⟨S4x2048x2048, .bf16⟩
  | .hbm, ⟨11, _⟩ => ⟨S4x2048x2048, .bf16⟩
  | .hbm, ⟨12, _⟩ => ⟨S4x4x512x2048, .bf16⟩
  | .hbm, ⟨13, _⟩ => ⟨S4x4x512x2048, .bf16⟩
  | .hbm, ⟨14, _⟩ => ⟨S4x2048x2048, .bf16⟩
  | .hbm, ⟨15, _⟩ => ⟨S4096x2048, .f32⟩
  | .hbm, ⟨16, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x512, .f32⟩
  | .local _ .vmem, ⟨5, _⟩ => ⟨S256x512, .f32⟩
  | .local _ .vmem, ⟨6, _⟩ => ⟨S1x2048x2048, .bf16⟩
  | .local _ .vmem, ⟨7, _⟩ => ⟨S1x2048x2048, .bf16⟩
  | .local _ .vmem, ⟨8, _⟩ => ⟨S1x2048x2048, .bf16⟩
  | .local _ .vmem, ⟨9, _⟩ => ⟨S1x2048x2048, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S4x2048x2048_S4x4x512x2048 : S4x2048x2048.ShapeCasts S4x4x512x2048
  transposes_S4x4x512x2048_S4x4x512x2048_1_0_2_3 : S4x4x512x2048.Transposes [1, 0, 2, 3] S4x4x512x2048
  shapeCasts_S4x4x512x2048_S4x2048x2048 : S4x4x512x2048.ShapeCasts S4x2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x512_S256x512_0_0 : ∀ a, (![0, 0] : Fin 2 → Nat) a + S256x512.size a ≤ S256x512.size a
  h_S256x512 : 0 < S256x512.numel
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S4096x2048.size a
  hwx0_2 : ∀ i : grid0.Coords, EltTy.bits .f32 = 32 ∨ (Rect.block (s := S4096x2048) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S4x2048x2048.size a
  hwx0_3 : ∀ i : grid0.Coords, EltTy.bits .bf16 = 32 ∨ (Rect.block (s := S4x2048x2048) S1x2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x2048.size a ≤ S4x2048x2048.size a
  hwx0_4 : ∀ i : grid0.Coords, EltTy.bits .bf16 = 32 ∨ (Rect.block (s := S4x2048x2048) S1x2048x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S4096x2048.size a
  hwx0_5 : ∀ i : grid0.Coords, EltTy.bits .f32 = 32 ∨ (Rect.block (s := S4096x2048) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S4096x2048.size a
  hwx0_6 : ∀ i : grid0.Coords, EltTy.bits .f32 = 32 ∨ (Rect.block (s := S4096x2048) S256x512.size (cc0_transform_6 i) (hinb0_6 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S256x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4x2048x2048 : Shape := ⟨3, ![4, 2048, 2048]⟩
abbrev S4x2048x4096 : Shape := ⟨3, ![4, 2048, 4096]⟩
abbrev S4x4096x2048 : Shape := ⟨3, ![4, 4096, 2048]⟩
abbrev S1x4096x2048 : Shape := ⟨3, ![1, 4096, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048x2048, .f32⟩
  | .hbm, ⟨5, _⟩ => ⟨S4x2048x4096, .f32⟩
  | .hbm, ⟨6, _⟩ => ⟨S4x4096x2048, .f32⟩
  | .hbm, ⟨7, _⟩ => ⟨S4x2048x4096, .f32⟩
  | .hbm, ⟨8, _⟩ => ⟨S4x4096x2048, .f32⟩
  | .hbm, ⟨9, _⟩ => ⟨S4x4096x2048, .f32⟩
  | .hbm, ⟨10, _⟩ => ⟨S1x4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S1x4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S1x4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S1x4096x2048, .f32⟩
  | .hbm, ⟨41, _⟩ => ⟨S4096x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_cst_6 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]

class Facts₀ : Prop where
  transposes_S4x2048x4096_S4x4096x2048_0_2_1 : S4x2048x4096.Transposes [0, 2, 1] S4x4096x2048
  slices_S4x4096x2048_S1x4096x2048_0_0_0 : S4x4096x2048.Slices ![0, 0, 0] S1x4096x2048
  shapeCasts_S1x4096x2048_S4096x2048 : S1x4096x2048.ShapeCasts S4096x2048
  bcast_S_S4096x2048 : S_.BroadcastsInDim S4096x2048 (![] : Fin 0 → Fin S4096x2048.rank)
  slices_S4x4096x2048_S1x4096x2048_1_0_0 : S4x4096x2048.Slices ![1, 0, 0] S1x4096x2048
  slices_S4x4096x2048_S1x4096x2048_2_0_0 : S4x4096x2048.Slices ![2, 0, 0] S1x4096x2048
  slices_S4x4096x2048_S1x4096x2048_3_0_0 : S4x4096x2048.Slices ![3, 0, 0] S1x4096x2048
  dot_S4x2048x2048_S4096x2048_S4x2048x4096_2_1_01_0_n_n_wf : DotDims.WF S4x2048x2048 S4096x2048 S4x2048x4096 [2] [1] [0, 1] [0] [] []

variable [Facts₀]

def dot_S4x2048x2048_S4096x2048_S4x2048x4096_2_1_01_0_n_n : DotDims S4x2048x2048 S4096x2048 S4x2048x4096 where
  lhsContracting := [2]
  rhsContracting := [1]
  lhsNonContracting := [0, 1]
  rhsNonContracting := [0]
  lhsBatch := []
  rhsBatch := []
  wf := dot_S4x2048x2048_S4096x2048_S4x2048x4096_2_1_01_0_n_n_wf

class Facts : Prop extends Facts₀ where

variable [Facts]
-- ==== Proof.LibTransDot.lean ====
/-
  A matrix product with the right operand given by rows, into a zero accumulator, read at coordinates.

  For a dot of a `[M, K]` matrix with a `[N, K]` matrix whose dimension numbers contract the second axis of both operands
  and keep the first axes in order (the product of the left matrix with the transpose of the right one), the product
  accumulated into the zero splat is, at `(p, c)`,

      ∑ k : Fin K, l (p, k) · r (c, k)

  on the extended reals. The dimension record enters only through four facts about its operand indices — the left index at
  output index `i` and contraction position `q` is `(i 0, q)`, the right one `(i 1, q)` — which a concrete record proves by
  unfolding; with them the sum over the record's one-axis contraction shape is re-indexed over `Fin K`.
-/
import Idealize.ShloMosaic.PureOps.Ideal.Laws
import Idealize.ShloMosaic.Lib.ValueIdx

namespace Cert.Lib.TransDot

open Idealize.ShloMosaic Idealize.ShloMosaic.ValueIdx

/-- The product of an `[M, K]` matrix with the transpose of an `[N, K]` matrix into the zero splat at `(p, c)`: the sum
    over `k` of `l (p, k) · r (c, k)`. -/
theorem matmul_zero_ix2_nt {M K N : ℕ} {φ₁ φ₂ : FTy}
    (D : DotDims ⟨2, ![M, K]⟩ ⟨2, ![N, K]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (i (1 : Fin 2)).val)
    (hr1 : ∀ (i : (⟨2, ![M, N]⟩ : Shape).Idx) (q : D.contr.Idx), (D.rhsIdx i q (1 : Fin 2)).val = (q ⟨0, by omega⟩).val)
    (prec : Option ContractPrecision) (l : FVec Ideal ⟨2, ![M, K]⟩ φ₁) (r : FVec Ideal ⟨2, ![N, K]⟩ φ₂) (p : Fin M) (c : Fin N) :
    FloatOps.matmul D prec l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.TransDot
-- ==== Proof.BlockGates.lean ====
/-
  The four gates' pre-activations of one tile, read at coordinates.

  For a tile of 256 rows and one block of 512 hidden units the body multiplies the rows' inputs `X` and states `S`
  (256 × 2048 each) with the block's re-tiled weights `A`, `B` (2048 × 2048 each: row `g · 512 + r` is gate `g`'s row `r`
  of the block), contracting the features, and adds the two products. At `(p, c)` the sum is

      ∑ k, X (p, k) · A (0, c, k) + ∑ k, S (p, k) · B (0, c, k).
-/
import proofs.«109041_j51969104281664_2_alg».proof.Proof.Gen.KernelIdeal.Skeleton
import proofs.«109041_j51969104281664_2_alg».proof.Proof.LibTransDot
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-- The product record keeps the left operand's row. -/
theorem lhs_row (i : S256x2048.Idx) (q : dot_S256x2048_S2048x2048_S256x2048_1_1_0_0_n_n.contr.Idx) :
    (dot_S256x2048_S2048x2048_S256x2048_1_1_0_0_n_n.lhsIdx i q (0 : Fin 2)).val = (i (0 : Fin 2)).val := by
  unfold DotDims.lhsIdx
  rw [dif_neg (show ¬(0 : Fin S256x2048.rank) ∈ dot_S256x2048_S2048x2048_S256x2048_1_1_0_0_n_n.lhsBatch by decide),
    dif_pos (show (0 : Fin S256x2048.rank) ∈ dot_S256x2048_S2048x2048_S256x2048_1_1_0_0_n_n.lhsNonContracting by decide)]
  rfl

/-- It contracts the left operand's features. -/
theorem lhs_feat (i : S256x2048.Idx) (q : dot_S256x2048_S2048x2048_S256x2048_1_1_0_0_n_n.contr.Idx) :
    (dot_S256x2048_S2048x2048_S256x2048_1_1_0_0_n_n.lhsIdx i q (1 : Fin 2)).val = (q ⟨0, by decide⟩).val :=
  dot_S256x2048_S2048x2048_S256x2048_1_1_0_0_n_n.lhsIdx_val_of_single rfl i q

/-- The right operand's row is the result's column. -/
theorem rhs_row (i : S256x2048.Idx) (q : dot_S256x2048_S2048x2048_S256x2048_1_1_0_0_n_n.contr.Idx) :
    (dot_S256x2048_S2048x2048_S256x2048_1_1_0_0_n_n.rhsIdx i q (0 : Fin 2)).val = (i (1 : Fin 2)).val := by
  unfold DotDims.rhsIdx
  rw [dif_neg (show ¬(0 : Fin S2048x2048.rank) ∈ dot_S256x2048_S2048x2048_S256x2048_1_1_0_0_n_n.rhsBatch by decide),
    dif_pos (show (0 : Fin S2048x2048.rank) ∈ dot_S256x2048_S2048x2048_S256x2048_1_1_0_0_n_n.rhsNonContracting by decide)]
  rfl

/-- It contracts the right operand's features. -/
theorem rhs_feat (i : S256x2048.Idx) (q : dot_S256x2048_S2048x2048_S256x2048_1_1_0_0_n_n.contr.Idx) :
    (dot_S256x2048_S2048x2048_S256x2048_1_1_0_0_n_n.rhsIdx i q (1 : Fin 2)).val = (q ⟨0, by decide⟩).val :=
  dot_S256x2048_S2048x2048_S256x2048_1_1_0_0_n_n.rhsIdx_val_of_single rfl i q

/-- One product of the tile: rows of `X` against rows of the block's weights. -/
theorem product_apply (X : Vec Ideal S256x2048 .bf16) (A : Vec Ideal S1x2048x2048 .bf16) (p : Fin 256) (c : Fin 2048) :
    FloatOps.matmul (F := Ideal) (φ₁ := .bf16) (φ₂ := .bf16) dot_S256x2048_S2048x2048_S256x2048_1_1_0_0_n_n none
        (shapeCast S256x2048 X shapeCasts_S256x2048_S256x2048 : FVec Ideal S256x2048 .bf16)
        (shapeCast S2048x2048 A shapeCasts_S1x2048x2048_S2048x2048 : FVec Ideal S2048x2048 .bf16)
        (constant (F := Ideal) S256x2048 .f32 0x00000000#32) (ix2 p c)
      = ∑ k : Fin 2048, X (ix2 p k) * A (ix3 (0 : Fin 1) c k) := by
  refine (Cert.Lib.TransDot.matmul_zero_ix2_nt (M := 256) (K := 2048) (N := 2048) (φ₁ := .bf16) (φ₂ := .bf16)
    dot_S256x2048_S2048x2048_S256x2048_1_1_0_0_n_n rfl rfl lhs_row lhs_feat rhs_row rhs_feat none
    (shapeCast S256x2048 X shapeCasts_S256x2048_S256x2048 : FVec Ideal S256x2048 .bf16)
    (shapeCast S2048x2048 A shapeCasts_S1x2048x2048_S2048x2048 : FVec Ideal S2048x2048 .bf16) p c).trans ?_
  refine Finset.sum_congr rfl fun k _ => ?_
  rw [shapeCast_self, shapeCast_1ab_ab_apply]

/-- The pre-activations of the tile at row `p`, column `c`. -/
theorem pay1_apply (X S : Vec Ideal S256x2048 .bf16) (A B : Vec Ideal S1x2048x2048 .bf16) (p : Fin 256) (c : Fin 2048) :
    k0_pay1 (F := Ideal) X S A B (ix2 p c)
      = (∑ k : Fin 2048, X (ix2 p k) * A (ix3 (0 : Fin 1) c k)) + (∑ k : Fin 2048, S (ix2 p k) * B (ix3 (0 : Fin 1) c k)) := by
  unfold k0_pay1
  exact congrArg₂ (fun a b : EReal => a + b) (product_apply X A p c) (product_apply S B p c)

end Cert.KernelIdeal.Tile

end
-- ==== Proof.Relayout.lean ====
/-
  The weights' tiling by hidden-unit block, read at coordinates.

  A stack `W` of four `2048 × 2048` matrices (gate, hidden unit, feature) is cut along the hidden units into four blocks
  of 512, the gate axis and the block axis are swapped, and the two are merged again: block `j` of the result holds, at
  row `g · 512 + r`, gate `g`'s row `j · 512 + r` of `W`.
-/
import Idealize.ShloMosaic.Lib.Pipeline.Value
import Idealize.ShloMosaic.Lib.ValueIdx

namespace Cert.LstmCell

open Idealize.ShloMosaic Idealize.ShloMosaic.ValueIdx

/-- Block `j`, row `g · 512 + r`, feature `k` of the re-tiled weights is `W (g, j · 512 + r, k)`. -/
theorem retiled_apply {α : Type} (W : (⟨3, ![4, 2048, 2048]⟩ : Shape).Idx → α)
    (h1 : (⟨3, ![4, 2048, 2048]⟩ : Shape).ShapeCasts ⟨4, ![4, 4, 512, 2048]⟩)
    (h2 : (⟨4, ![4, 4, 512, 2048]⟩ : Shape).Transposes [1, 0, 2, 3] ⟨4, ![4, 4, 512, 2048]⟩)
    (h3 : (⟨4, ![4, 4, 512, 2048]⟩ : Shape).ShapeCasts ⟨3, ![4, 2048, 2048]⟩)
    (j g : Fin 4) (r : Fin 512) (k : Fin 2048) (row : Fin 2048) (hrow : row.val = g.val * 512 + r.val)
    (unit : Fin 2048) (hunit : unit.val = j.val * 512 + r.val) :
    shapeCast ⟨3, ![4, 2048, 2048]⟩
        (transpose ⟨4, ![4, 4, 512, 2048]⟩ [1, 0, 2, 3] (shapeCast ⟨4, ![4, 4, 512, 2048]⟩ W h1) h2) h3 (ix3 j row k)
      = W (ix3 g unit k) := by
  refine (shapeCast_apply _ h3 (ix3 j row k) (ix4 j g r k) ?_).trans ?_
  · rw [Shape.rowMajor_val_four, Shape.rowMajor_val_three]
    show ((j.val * 4 + g.val) * 512 + r.val) * 2048 + k.val = (j.val * 2048 + row.val) * 2048 + k.val
    rw [hrow]; omega
  refine (transpose_apply [1, 0, 2, 3] _ h2 (ix4 j g r k) (ix4 g j r k) (fun b => ?_)).trans ?_
  · match b with
    | ⟨0, _⟩ => rfl
    | ⟨1, _⟩ => rfl
    | ⟨2, _⟩ => rfl
    | ⟨3, _⟩ => rfl
  refine shapeCast_apply W h1 (ix4 g j r k) (ix3 g unit k) ?_
  rw [Shape.rowMajor_val_three, Shape.rowMajor_val_four]
  show (g.val * 2048 + unit.val) * 2048 + k.val = ((g.val * 4 + j.val) * 512 + r.val) * 2048 + k.val
  rw [hunit]; omega

end Cert.LstmCell
-- ==== Proof.KernelArrays.lean ====
/-
  What the tiles read.

  Before the tiles run, the input and the state are narrowed (the identity on the extended reals) and each weight stack is
  re-tiled by hidden-unit block. Tile `t` of the 4 × 16 grid works on row block `I` (256 rows) and hidden-unit block `J`
  (512 units), where `(I, J)` is the block index of its results: it reads rows `I · 256 + p` of the input and of the
  state, the cell's entries `(I · 256 + p, J · 512 + q)`, and block `J` of each re-tiled weight stack, whose row
  `g · 512 + q` is gate `g`'s row `J · 512 + q`.
-/
import proofs.«109041_j51969104281664_2_alg».proof.Proof.Gen.KernelIdeal.Frame
import proofs.«109041_j51969104281664_2_alg».proof.Proof.Relayout
import Idealize.ShloMosaic.Lib.Pipeline.Value
import Idealize.ShloMosaic.Lib.StableHlo.Run
import Idealize.ShloMosaic.Lib.ValueIdx

noncomputable section

namespace Cert.KernelIdeal.Tile

open Cert.KernelIdeal Cert.KernelIdeal.Gen Cert.LstmCell
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The arrays as the tiles find them -/

/-- The narrowed input is the input. -/
theorem entry_x (c : Dev nD) (i : S4096x2048.Idx) :
    (V m c main_v0 : Vec Ideal S4096x2048 .bf16) i = (m ((c : Thread nD τ).loc main_arg0) : Vec Ideal S4096x2048 .f32) i := by
  have e : @Eq (Vec Ideal S4096x2048 .bf16) (V m c main_v0)
      (truncf (F := Ideal) .bf16 (m ((c : Thread nD τ).loc main_arg0) : FVec Ideal S4096x2048 .f32) bitsLt_bf16_f32) := by
    dsimp only [Gen.V, Gen.hostOps0]; after_results <;> rfl
  rw [e]; rfl

/-- The narrowed state is the state. -/
theorem entry_s (c : Dev nD) (i : S4096x2048.Idx) :
    (V m c main_v1 : Vec Ideal S4096x2048 .bf16) i = (m ((c : Thread nD τ).loc main_arg1) : Vec Ideal S4096x2048 .f32) i := by
  have e : @Eq (Vec Ideal S4096x2048 .bf16) (V m c main_v1)
      (truncf (F := Ideal) .bf16 (m ((c : Thread nD τ).loc main_arg1) : FVec Ideal S4096x2048 .f32) bitsLt_bf16_f32) := by
    dsimp only [Gen.V, Gen.hostOps0]; after_results <;> rfl
  rw [e]; rfl

/-- Block `j`, row `g · 512 + r` of the input weights as the tiles find them is gate `g`'s row `j · 512 + r`. -/
theorem entry_wi (c : Dev nD) (j g : Fin 4) (r : Fin 512) (k : Fin 2048) (row : Fin 2048) (hrow : row.val = g.val * 512 + r.val)
    (unit : Fin 2048) (hunit : unit.val = j.val * 512 + r.val) :
    (V m c main_v5 : Vec Ideal S4x2048x2048 .bf16) (ix3 j row k)
      = (m ((c : Thread nD τ).loc main_arg3) : Vec Ideal S4x2048x2048 .f32) (ix3 g unit k) := by
  have e : @Eq (Vec Ideal S4x2048x2048 .bf16) (V m c main_v5)
      (shapeCast S4x2048x2048 (transpose S4x4x512x2048 [1, 0, 2, 3]
          (shapeCast S4x4x512x2048 (truncf (F := Ideal) .bf16 (m ((c : Thread nD τ).loc main_arg3) : FVec Ideal S4x2048x2048 .f32) bitsLt_bf16_f32)
            shapeCasts_S4x2048x2048_S4x4x512x2048) transposes_S4x4x512x2048_S4x4x512x2048_1_0_2_3) shapeCasts_S4x4x512x2048_S4x2048x2048) := by
    dsimp only [Gen.V, Gen.hostOps0]; after_results <;> rfl
  rw [e]
  exact retiled_apply _ _ _ _ j g r k row hrow unit hunit

/-- The same for the state weights. -/
theorem entry_wh (c : Dev nD) (j g : Fin 4) (r : Fin 512) (k : Fin 2048) (row : Fin 2048) (hrow : row.val = g.val * 512 + r.val)
    (unit : Fin 2048) (hunit : unit.val = j.val * 512 + r.val) :
    (V m c main_v9 : Vec Ideal S4x2048x2048 .bf16) (ix3 j row k)
      = (m ((c : Thread nD τ).loc main_arg4) : Vec Ideal S4x2048x2048 .f32) (ix3 g unit k) := by
  have e : @Eq (Vec Ideal S4x2048x2048 .bf16) (V m c main_v9)
      (shapeCast S4x2048x2048 (transpose S4x4x512x2048 [1, 0, 2, 3]
          (shapeCast S4x4x512x2048 (truncf (F := Ideal) .bf16 (m ((c : Thread nD τ).loc main_arg4) : FVec Ideal S4x2048x2048 .f32) bitsLt_bf16_f32)
            shapeCasts_S4x2048x2048_S4x4x512x2048) transposes_S4x4x512x2048_S4x4x512x2048_1_0_2_3) shapeCasts_S4x4x512x2048_S4x2048x2048) := by
    dsimp only [Gen.V, Gen.hostOps0]; after_results <;> rfl
  rw [e]
  exact retiled_apply _ _ _ _ j g r k row hrow unit hunit

/-! ## The tiles' block indices -/

/-- Over the 64 tiles: every operand's block index in terms of the results' `(I, J)`, and the ranges of `I` and `J`. -/
theorem tile_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = win0_5.index t (1 : Fin 2)
    ∧ win0_3.index t (0 : Fin 3) = win0_5.index t (1 : Fin 2) ∧ win0_3.index t (1 : Fin 3) = 0 ∧ win0_3.index t (2 : Fin 3) = 0
    ∧ win0_4.index t (0 : Fin 3) = win0_5.index t (1 : Fin 2) ∧ win0_4.index t (1 : Fin 3) = 0 ∧ win0_4.index t (2 : Fin 3) = 0
    ∧ win0_6.index t (0 : Fin 2) = win0_5.index t (0 : Fin 2) ∧ win0_6.index t (1 : Fin 2) = win0_5.index t (1 : Fin 2)
    ∧ win0_5.index t (0 : Fin 2) < 16 ∧ win0_5.index t (1 : Fin 2) < 4 :=
  (by decide +kernel : ∀ t : Fin grid0.N, _)

/-- Every pair `(I, J)` is some tile's. -/
theorem tile_onto : ∀ (q0 : Fin 16) (q1 : Fin 4), ∃ t : Fin cfg0.N, win0_5.index t = ![q0.val, q1.val] :=
  (by decide +kernel : ∀ (q0 : Fin 16) (q1 : Fin 4), ∃ t : Fin grid0.N, win0_5.index t = ![q0.val, q1.val])

/-! ## The blocks at coordinates -/

/-- The tile's input rows. -/
theorem xblk_apply (c : Dev nD) (t : Fin cfg0.N) (p : Fin 256) (k : Fin 2048) (b : Fin 4096)
    (hb : b.val = win0_5.index t (0 : Fin 2) * 256 + p.val) :
    (iblk m c 0 t : Vec Ideal S256x2048 .bf16) (ix2 p k) = (m ((c : Thread nD τ).loc main_arg0) : Vec Ideal S4096x2048 .f32) (ix2 b k) := by
  obtain ⟨e0, e1, -⟩ := tile_facts t
  unfold iblk
  rw [View.read_apply]
  refine Eq.trans ?_ (entry_x m c (ix2 b k))
  refine congrArg (V m c main_v0 : Vec Ideal S4096x2048 .bf16) (funext fun a => Fin.ext ?_)
  match a with
  | ⟨0, _⟩ => show win0_0.index t (0 : Fin 2) * 256 + 1 * p.val = b.val; omega
  | ⟨1, _⟩ => show win0_0.index t (1 : Fin 2) * 2048 + 1 * k.val = k.val; omega

/-- The tile's state rows. -/
theorem sblk_apply (c : Dev nD) (t : Fin cfg0.N) (p : Fin 256) (k : Fin 2048) (b : Fin 4096)
    (hb : b.val = win0_5.index t (0 : Fin 2) * 256 + p.val) :
    (iblk m c 1 t : Vec Ideal S256x2048 .bf16) (ix2 p k) = (m ((c : Thread nD τ).loc main_arg1) : Vec Ideal S4096x2048 .f32) (ix2 b k) := by
  obtain ⟨-, -, e0, e1, -⟩ := tile_facts t
  unfold iblk
  rw [View.read_apply]
  refine Eq.trans ?_ (entry_s m c (ix2 b k))
  refine congrArg (V m c main_v1 : Vec Ideal S4096x2048 .bf16) (funext fun a => Fin.ext ?_)
  match a with
  | ⟨0, _⟩ => show win0_1.index t (0 : Fin 2) * 256 + 1 * p.val = b.val; omega
  | ⟨1, _⟩ => show win0_1.index t (1 : Fin 2) * 2048 + 1 * k.val = k.val; omega

/-- The tile's cell entries. -/
theorem cblk_apply (c : Dev nD) (t : Fin cfg0.N) (p : Fin 256) (q : Fin 512) (b : Fin 4096) (h : Fin 2048)
    (hb : b.val = win0_5.index t (0 : Fin 2) * 256 + p.val) (hh : h.val = win0_5.index t (1 : Fin 2) * 512 + q.val) :
    (iblk m c 2 t : Vec Ideal S256x512 .f32) (ix2 p q) = (m ((c : Thread nD τ).loc main_arg2) : Vec Ideal S4096x2048 .f32) (ix2 b h) := by
  obtain ⟨-, -, -, -, e0, e1, -⟩ := tile_facts t
  unfold iblk
  rw [View.read_apply]
  refine Eq.trans ?_ (congrFun (V_main_arg2 m c) (ix2 b h))
  refine congrArg (V m c main_arg2 : Vec Ideal S4096x2048 .f32) (funext fun a => Fin.ext ?_)
  match a with
  | ⟨0, _⟩ => show win0_2.index t (0 : Fin 2) * 256 + 1 * p.val = b.val; omega
  | ⟨1, _⟩ => show win0_2.index t (1 : Fin 2) * 512 + 1 * q.val = h.val; omega

/-- The tile's input weights: row `g · 512 + q` of its block is gate `g`'s row of hidden unit `J · 512 + q`. -/
theorem wiblk_apply (c : Dev nD) (t : Fin cfg0.N) (g : Fin 4) (q : Fin 512) (k : Fin 2048) (row : Fin 2048)
    (hrow : row.val = g.val * 512 + q.val) (h : Fin 2048) (hh : h.val = win0_5.index t (1 : Fin 2) * 512 + q.val) :
    (iblk m c 3 t : Vec Ideal S1x2048x2048 .bf16) (ix3 (0 : Fin 1) row k)
      = (m ((c : Thread nD τ).loc main_arg3) : Vec Ideal S4x2048x2048 .f32) (ix3 g h k) := by
  obtain ⟨-, -, -, -, -, -, e0, e1, e2, -, -, -, -, -, -, hj⟩ := tile_facts t
  unfold iblk
  rw [View.read_apply]
  refine Eq.trans ?_ (entry_wi m c ⟨win0_5.index t (1 : Fin 2), hj⟩ g q k row hrow h hh)
  refine congrArg (V m c main_v5 : Vec Ideal S4x2048x2048 .bf16) (funext fun a => Fin.ext ?_)
  match a with
  | ⟨0, _⟩ => show win0_3.index t (0 : Fin 3) * 1 + 1 * 0 = win0_5.index t (1 : Fin 2); omega
  | ⟨1, _⟩ => show win0_3.index t (1 : Fin 3) * 2048 + 1 * row.val = row.val; omega
  | ⟨2, _⟩ => show win0_3.index t (2 : Fin 3) * 2048 + 1 * k.val = k.val; omega

/-- The tile's state weights. -/
theorem whblk_apply (c : Dev nD) (t : Fin cfg0.N) (g : Fin 4) (q : Fin 512) (k : Fin 2048) (row : Fin 2048)
    (hrow : row.val = g.val * 512 + q.val) (h : Fin 2048) (hh : h.val = win0_5.index t (1 : Fin 2) * 512 + q.val) :
    (iblk m c 4 t : Vec Ideal S1x2048x2048 .bf16) (ix3 (0 : Fin 1) row k)
      = (m ((c : Thread nD τ).loc main_arg4) : Vec Ideal S4x2048x2048 .f32) (ix3 g h k) := by
  obtain ⟨-, -, -, -, -, -, -, -, -, e0, e1, e2, -, -, -, hj⟩ := tile_facts t
  unfold iblk
  rw [View.read_apply]
  refine Eq.trans ?_ (entry_wh m c ⟨win0_5.index t (1 : Fin 2), hj⟩ g q k row hrow h hh)
  refine congrArg (V m c main_v9 : Vec Ideal S4x2048x2048 .bf16) (funext fun a => Fin.ext ?_)
  match a with
  | ⟨0, _⟩ => show win0_4.index t (0 : Fin 3) * 1 + 1 * 0 = win0_5.index t (1 : Fin 2); omega
  | ⟨1, _⟩ => show win0_4.index t (1 : Fin 3) * 2048 + 1 * row.val = row.val; omega
  | ⟨2, _⟩ => show win0_4.index t (2 : Fin 3) * 2048 + 1 * k.val = k.val; omega

end Cert.KernelIdeal.Tile

end
-- ==== Proof.Spec.lean ====
/-
  The cell of a long short-term memory network with a clipped update gate, as one function of its five arrays.

  For a batch of 4096 rows, 2048 input features and 2048 hidden units, gate `g` (0 forget, 1 input, 2 output, 3 update)
  of row `b` and hidden unit `h` has the pre-activation

      pre g b h = ∑ k, x (b, k) · W_in (g, h, k)  +  ∑ k, state (b, k) · W_h (g, h, k),

  and with σ v = 1 / (1 + e^(-v)) and clip v = min 1 (max (-1) v)

      newCell  b h = σ (pre 0 b h) · cell (b, h) + σ (pre 1 b h) · clip (pre 3 b h)
      newState b h = σ (pre 2 b h) · clip (newCell b h).

  Everything is read on the extended reals; the two clip bounds stay the float words the programs spell, and only the
  word of `1.0` inside the host's spelling of σ is evaluated (`ofBits_one`).
-/
import Idealize.ShloMosaic.PureOps.Ideal
import Idealize.ShloMosaic.Lib.ValueIdx

noncomputable section

namespace Cert.LstmCell

open Idealize.ShloMosaic Idealize.ShloMosaic.ValueIdx

/-- A batch-by-feature array. -/
abbrev Mat : Type := (⟨2, ![4096, 2048]⟩ : Shape).Idx → EReal
/-- The four gates' weight matrices, stacked: gate, hidden unit, feature. -/
abbrev Wts : Type := (⟨3, ![4, 2048, 2048]⟩ : Shape).Idx → EReal

/-- The word of `1.0` denotes the real one. -/
theorem ofBits_one : Ideal.ofBits .f32 0x3F800000#32 = 1 := by
  simp [Ideal.ofBits, Ideal.ieee, -EReal.coe_mul]; norm_num

/-- Clipping to `[-1, 1]`: the lower bound first, then the upper one. -/
def clip (v : EReal) : EReal := min (Ideal.ofBits .f32 0x3F800000#32) (max (Ideal.ofBits .f32 0xBF800000#32) v)

/-- Gate `g`'s pre-activation at row `b`, hidden unit `h`: the input's and the state's products with the gate's rows. -/
def pre (x st : Mat) (wi wh : Wts) (g : Fin 4) (b : Fin 4096) (h : Fin 2048) : EReal :=
  (∑ k : Fin 2048, x (ix2 b k) * wi (ix3 g h k)) + (∑ k : Fin 2048, st (ix2 b k) * wh (ix3 g h k))

/-- The new cell at `(b, h)`. -/
def newCellAt (x st cell : Mat) (wi wh : Wts) (b : Fin 4096) (h : Fin 2048) : EReal :=
  Ideal.logistic (pre x st wi wh 0 b h) * cell (ix2 b h) + Ideal.logistic (pre x st wi wh 1 b h) * clip (pre x st wi wh 3 b h)

/-- The new state at `(b, h)`. -/
def newStateAt (x st cell : Mat) (wi wh : Wts) (b : Fin 4096) (h : Fin 2048) : EReal :=
  Ideal.logistic (pre x st wi wh 2 b h) * clip (newCellAt x st cell wi wh b h)

/-- The new cell as an array. -/
def newCell (x st cell : Mat) (wi wh : Wts) : Mat := fun i => newCellAt x st cell wi wh (i 0) (i 1)

/-- The new state as an array. -/
def newState (x st cell : Mat) (wi wh : Wts) : Mat := fun i => newStateAt x st cell wi wh (i 0) (i 1)

/-- The host's spelling of σ — one over one plus the exponential of the negation, the ones as float words — is σ. -/
theorem host_sigmoid (v : EReal) :
    FloatOps.hostDivf (F := Ideal) (φ := .f32) (FloatOps.ofBits .f32 0x3F800000#32)
      (FloatOps.addf (FloatOps.ofBits .f32 0x3F800000#32) (FloatOps.hostUnary .exp (FloatOps.hostNegf v))) = Ideal.logistic v := by
  show Ideal.div (Ideal.ofBits .f32 0x3F800000#32) (Ideal.ofBits .f32 0x3F800000#32 + Ideal.exp (-v)) = Ideal.logistic v
  rw [ofBits_one]; rfl

end Cert.LstmCell

end
-- ==== Proof.TileCell.lean ====
/-
  One tile computes the cell on its rows and hidden units.

  The tile of row block `I` and hidden-unit block `J` holds, at column `g · 512 + q` of its 256 × 2048 product sum, gate
  `g`'s pre-activation of row `I · 256 + p` and hidden unit `J · 512 + q`: the forget, input, output and update gates are
  its four column slices. What it stores at `(p, q)` is therefore the new cell and the new state of the specification
  at `(I · 256 + p, J · 512 + q)`.
-/
import proofs.«109041_j51969104281664_2_alg».proof.Proof.Gen.KernelIdeal.Value
import proofs.«109041_j51969104281664_2_alg».proof.Proof.BlockGates
import proofs.«109041_j51969104281664_2_alg».proof.Proof.KernelArrays
import proofs.«109041_j51969104281664_2_alg».proof.Proof.Spec

noncomputable section

namespace Cert.KernelIdeal.Tile

open Cert.KernelIdeal Cert.KernelIdeal.Gen Cert.LstmCell
open Idealize.ShloMosaic Idealize.ShloMosaic.TcCoe Idealize.SL.Sem Idealize.ShloMosaic.ValueIdx

/-! ## The stored values over arbitrary blocks -/

/-- What the tile stores as its new cell, from the three gates it uses and the old cell. -/
theorem cell_of_gates (P0 P1 : Vec Ideal S256x2048 .bf16) (P2 P3 : Vec Ideal S1x2048x2048 .bf16) (P4 : Vec Ideal S256x512 .f32)
    (p : Fin 256) (q : Fin 512) (c0 c1 c3 : Fin 2048) (h0 : c0.val = q.val) (h1 : c1.val = q.val + 512) (h3 : c3.val = q.val + 1536)
    (a0 a1 a3 old : EReal)
    (e0 : k0_pay1 (F := Ideal) P0 P1 P2 P3 (ix2 p c0) = a0) (e1 : k0_pay1 (F := Ideal) P0 P1 P2 P3 (ix2 p c1) = a1)
    (e3 : k0_pay1 (F := Ideal) P0 P1 P2 P3 (ix2 p c3) = a3) (eo : P4 (ix2 p q) = old) :
    Value.E6 (F := Ideal) P0 P1 P2 P3 P4 (ix2 p q) = Ideal.logistic a0 * old + Ideal.logistic a1 * clip a3 := by
  have i0 : Value.ix6_0 (ix2 p q) = ix2 p c0 := funext fun a => Fin.ext (by
    match a with
    | ⟨0, _⟩ => rfl
    | ⟨1, _⟩ => show q.val = c0.val; omega)
  have i1 : Value.ix6_1 (ix2 p q) = ix2 p q := funext fun a => Fin.ext (by
    match a with
    | ⟨0, _⟩ => rfl
    | ⟨1, _⟩ => rfl)
  have i2 : Value.ix6_2 (ix2 p q) = ix2 p c1 := funext fun a => Fin.ext (by
    match a with
    | ⟨0, _⟩ => rfl
    | ⟨1, _⟩ => show q.val + 512 = c1.val; omega)
  have i3 : Value.ix6_3 (ix2 p q) = ix2 p c3 := funext fun a => Fin.ext (by
    match a with
    | ⟨0, _⟩ => rfl
    | ⟨1, _⟩ => show q.val + 1536 = c3.val; omega)
  show FloatOps.addf (FloatOps.mulf (FloatOps.logistic (k0_pay1 (F := Ideal) P0 P1 P2 P3 (Value.ix6_0 (ix2 p q)))) (P4 (Value.ix6_1 (ix2 p q))))
      (FloatOps.mulf (FloatOps.logistic (k0_pay1 (F := Ideal) P0 P1 P2 P3 (Value.ix6_2 (ix2 p q))))
        (FloatOps.minimumf (Scalar.ofBits .f32 0x3F800000#32) (FloatOps.maximumf (Scalar.ofBits .f32 0xBF800000#32)
          (k0_pay1 (F := Ideal) P0 P1 P2 P3 (Value.ix6_3 (ix2 p q)))))) = _
  rw [i0, i1, i2, i3, e0, e1, e3, eo]
  rfl

/-- What the tile stores as its new state, from the four gates and the old cell. -/
theorem state_of_gates (P0 P1 : Vec Ideal S256x2048 .bf16) (P2 P3 : Vec Ideal S1x2048x2048 .bf16) (P4 : Vec Ideal S256x512 .f32)
    (p : Fin 256) (q : Fin 512) (c0 c1 c2 c3 : Fin 2048) (h0 : c0.val = q.val) (h1 : c1.val = q.val + 512)
    (h2 : c2.val = q.val + 1024) (h3 : c3.val = q.val + 1536)
    (a0 a1 a2 a3 old : EReal)
    (e0 : k0_pay1 (F := Ideal) P0 P1 P2 P3 (ix2 p c0) = a0) (e1 : k0_pay1 (F := Ideal) P0 P1 P2 P3 (ix2 p c1) = a1)
    (e2 : k0_pay1 (F := Ideal) P0 P1 P2 P3 (ix2 p c2) = a2) (e3 : k0_pay1 (F := Ideal) P0 P1 P2 P3 (ix2 p c3) = a3)
    (eo : P4 (ix2 p q) = old) :
    Value.E5 (F := Ideal) P0 P1 P2 P3 P4 (ix2 p q)
      = Ideal.logistic a2 * clip (Ideal.logistic a0 * old + Ideal.logistic a1 * clip a3) := by
  have i0 : Value.ix5_0 (ix2 p q) = ix2 p c2 := funext fun a => Fin.ext (by
    match a with
    | ⟨0, _⟩ => rfl
    | ⟨1, _⟩ => show q.val + 1024 = c2.val; omega)
  have i1 : Value.ix5_1 (ix2 p q) = ix2 p c0 := funext fun a => Fin.ext (by
    match a with
    | ⟨0, _⟩ => rfl
    | ⟨1, _⟩ => show q.val = c0.val; omega)
  have i2 : Value.ix5_2 (ix2 p q) = ix2 p q := funext fun a => Fin.ext (by
    match a with
    | ⟨0, _⟩ => rfl
    | ⟨1, _⟩ => rfl)
  have i3 : Value.ix5_3 (ix2 p q) = ix2 p c1 := funext fun a => Fin.ext (by
    match a with
    | ⟨0, _⟩ => rfl
    | ⟨1, _⟩ => show q.val + 512 = c1.val; omega)
  have i4 : Value.ix5_4 (ix2 p q) = ix2 p c3 := funext fun a => Fin.ext (by
    match a with
    | ⟨0, _⟩ => rfl
    | ⟨1, _⟩ => show q.val + 1536 = c3.val; omega)
  show FloatOps.mulf (FloatOps.logistic (k0_pay1 (F := Ideal) P0 P1 P2 P3 (Value.ix5_0 (ix2 p q))))
      (FloatOps.minimumf (Scalar.ofBits .f32 0x3F800000#32) (FloatOps.maximumf (Scalar.ofBits .f32 0xBF800000#32)
        (FloatOps.addf (FloatOps.mulf (FloatOps.logistic (k0_pay1 (F := Ideal) P0 P1 P2 P3 (Value.ix5_1 (ix2 p q)))) (P4 (Value.ix5_2 (ix2 p q))))
          (FloatOps.mulf (FloatOps.logistic (k0_pay1 (F := Ideal) P0 P1 P2 P3 (Value.ix5_3 (ix2 p q))))
            (FloatOps.minimumf (Scalar.ofBits .f32 0x3F800000#32) (FloatOps.maximumf (Scalar.ofBits .f32 0xBF800000#32)
              (k0_pay1 (F := Ideal) P0 P1 P2 P3 (Value.ix5_4 (ix2 p q))))))))) = _
  rw [i0, i1, i2, i3, i4, e0, e1, e2, e3, eo]
  rfl

theorem zero2 : (![0, 0] : Fin 2 → Nat) = fun _ => 0 := funext fun a => by fin_cases a <;> rfl
theorem zero3 : (![0, 0, 0] : Fin 3 → Nat) = fun _ => 0 := funext fun a => by fin_cases a <;> rfl

/-- The new-cell buffer after the body is the generated block function of the loaded blocks. -/
theorem out_cell_apply (x0 x1 : Vec Ideal S256x2048 .bf16) (x2 : Vec Ideal S256x512 .f32) (x3 x4 : Vec Ideal S1x2048x2048 .bf16)
    (y : S256x512.Idx) : out0_6 (F := Ideal) x0 x1 x2 x3 x4 y = Value.E6 (F := Ideal) x0 x1 x3 x4 x2 y := by
  unfold out0_6
  simp only [View.ld_unit_zero (S := S256x2048) zero2, View.ld_unit_zero (S := S256x512) zero2, View.ld_unit_zero (S := S1x2048x2048) zero3]
  exact Value.canon6_eq x0 x1 x3 x4 x2 y

/-- The new-state buffer after the body is the generated block function of the loaded blocks. -/
theorem out_state_apply (x0 x1 : Vec Ideal S256x2048 .bf16) (x2 : Vec Ideal S256x512 .f32) (x3 x4 : Vec Ideal S1x2048x2048 .bf16)
    (y : S256x512.Idx) : out0_5 (F := Ideal) x0 x1 x2 x3 x4 y = Value.E5 (F := Ideal) x0 x1 x3 x4 x2 y := by
  unfold out0_5
  simp only [View.ld_unit_zero (S := S256x2048) zero2, View.ld_unit_zero (S := S256x512) zero2, View.ld_unit_zero (S := S1x2048x2048) zero3]
  exact Value.canon5_eq x0 x1 x3 x4 x2 y

/-! ## At the tile's blocks -/

variable (m : (ℓ : Loc nD τ sig) → Buf (Elt Ideal) ℓ)

/-- The five argument arrays of core `c`. -/
abbrev argX (c : Dev nD) : Mat := m ((c : Thread nD τ).loc main_arg0)
abbrev argS (c : Dev nD) : Mat := m ((c : Thread nD τ).loc main_arg1)
abbrev argC (c : Dev nD) : Mat := m ((c : Thread nD τ).loc main_arg2)
abbrev argWi (c : Dev nD) : Wts := m ((c : Thread nD τ).loc main_arg3)
abbrev argWh (c : Dev nD) : Wts := m ((c : Thread nD τ).loc main_arg4)

/-- Column `g · 512 + q` of the tile's product sum at row `p` is gate `g` at the tile's global coordinates. -/
theorem tile_pre (c : Dev nD) (t : Fin cfg0.N) (p : Fin 256) (q : Fin 512) (g : Fin 4) (col : Fin 2048)
    (hcol : col.val = g.val * 512 + q.val) (b : Fin 4096) (h : Fin 2048)
    (hb : b.val = win0_5.index t (0 : Fin 2) * 256 + p.val) (hh : h.val = win0_5.index t (1 : Fin 2) * 512 + q.val) :
    k0_pay1 (F := Ideal) (iblk m c 0 t) (iblk m c 1 t) (iblk m c 3 t) (iblk m c 4 t) (ix2 p col)
      = pre (argX m c) (argS m c) (argWi m c) (argWh m c) g b h := by
  refine (pay1_apply (iblk m c 0 t) (iblk m c 1 t) (iblk m c 3 t) (iblk m c 4 t) p col).trans ?_
  unfold pre
  refine congrArg₂ (fun u v : EReal => u + v) (Finset.sum_congr rfl fun k _ => ?_) (Finset.sum_congr rfl fun k _ => ?_)
  · exact congrArg₂ (fun u v : EReal => u * v) (xblk_apply m c t p k b hb) (wiblk_apply m c t g q k col hcol h hh)
  · exact congrArg₂ (fun u v : EReal => u * v) (sblk_apply m c t p k b hb) (whblk_apply m c t g q k col hcol h hh)

/-- The tile's new cell at `(p, q)` is the specification's at its global coordinates. -/
theorem tile_cell (c : Dev nD) (t : Fin cfg0.N) (p : Fin 256) (q : Fin 512) (b : Fin 4096) (h : Fin 2048)
    (hb : b.val = win0_5.index t (0 : Fin 2) * 256 + p.val) (hh : h.val = win0_5.index t (1 : Fin 2) * 512 + q.val) :
    out0_6 (F := Ideal) (iblk m c 0 t) (iblk m c 1 t) (iblk m c 2 t) (iblk m c 3 t) (iblk m c 4 t) (ix2 p q)
      = newCellAt (argX m c) (argS m c) (argC m c) (argWi m c) (argWh m c) b h := by
  have hq := q.isLt
  refine (out_cell_apply (iblk m c 0 t) (iblk m c 1 t) (iblk m c 2 t) (iblk m c 3 t) (iblk m c 4 t) (ix2 p q)).trans ?_
  exact cell_of_gates (iblk m c 0 t) (iblk m c 1 t) (iblk m c 3 t) (iblk m c 4 t) (iblk m c 2 t) p q
    ⟨q.val, by omega⟩ ⟨q.val + 512, by omega⟩ ⟨q.val + 1536, by omega⟩ rfl rfl rfl _ _ _ _
    (tile_pre m c t p q 0 _ (by show q.val = 0 * 512 + q.val; omega) b h hb hh)
    (tile_pre m c t p q 1 _ (by show q.val + 512 = 1 * 512 + q.val; omega) b h hb hh)
    (tile_pre m c t p q 3 _ (by show q.val + 1536 = 3 * 512 + q.val; omega) b h hb hh)
    (cblk_apply m c t p q b h hb hh)

/-- The tile's new state at `(p, q)` is the specification's at its global coordinates. -/
theorem tile_state (c : Dev nD) (t : Fin cfg0.N) (p : Fin 256) (q : Fin 512) (b : Fin 4096) (h : Fin 2048)
    (hb : b.val = win0_5.index t (0 : Fin 2) * 256 + p.val) (hh : h.val = win0_5.index t (1 : Fin 2) * 512 + q.val) :
    out0_5 (F := Ideal) (iblk m c 0 t) (iblk m c 1 t) (iblk m c 2 t) (iblk m c 3 t) (iblk m c 4 t) (ix2 p q)
      = newStateAt (argX m c) (argS m c) (argC m c) (argWi m c) (argWh m c) b h := by
  have hq := q.isLt
  refine (out_state_apply (iblk m c 0 t) (iblk m c 1 t) (iblk m c 2 t) (iblk m c 3 t) (iblk m c 4 t) (ix2 p q)).trans ?_
  exact state_of_gates (iblk m c 0 t) (iblk m c 1 t) (iblk m c 3 t) (iblk m c 4 t) (iblk m c 2 t) p q
    ⟨q.val, by omega⟩ ⟨q.val + 512, by omega⟩ ⟨q.val + 1024, by omega⟩ ⟨q.val + 1536, by omega⟩ rfl rfl rfl rfl _ _ _ _ _
    (tile_pre m c t p q 0 _ (by show q.val = 0 * 512 + q.val; omega) b h hb hh)
    (tile_pre m c t p q 1 _ (by show q.val + 512 = 1 * 512 + q.val; omega) b h hb hh)
    (tile_pre m c t p q 2 _ (by show q.val + 1024 = 2 * 512 + q.val; omega) b h hb hh)
    (tile_pre m c t p q 3 _ (by show q.val + 1536 = 3 * 512 + q.val; omega) b h hb hh)
    (cblk_apply m c t p q b h hb hh)

end Cert.KernelIdeal.Tile

end
-- ==== Proof.WholeArrays.lean ====
/-
  The tiles fill the two result arrays with the cell.

  Tile `t` writes back, into block `(I, J)` of each result array (rows `I · 256 …`, hidden units `J · 512 …`), what its
  body stored: the specification's new state, and new cell, restricted to that block. The 16 × 4 blocks tile the
  4096 × 2048 arrays — the entry `(b, h)` lies in the block of `I = b / 256`, `J = h / 512` — so after the last tile each
  array is the specification's, whole.
-/
import proofs.«109041_j51969104281664_2_alg».proof.Proof.TileCell
import Idealize.ShloMosaic.Lib.Pipeline.Value

noncomputable section

namespace Cert.KernelIdeal.Whole

open Cert.KernelIdeal Cert.KernelIdeal.Gen Cert.KernelIdeal.Tile Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The new state of core `c`'s arguments. -/
abbrev stateOf (c : Dev nD) : Mat := newState (argX m c) (argS m c) (argC m c) (argWi m c) (argWh m c)
/-- The new cell of core `c`'s arguments. -/
abbrev cellOf (c : Dev nD) : Mat := newCell (argX m c) (argS m c) (argC m c) (argWi m c) (argWh m c)

/-! ## One tile's write-back -/

/-- Tile `t` writes back block `t` of the new state. -/
theorem flushed_state (c : Dev nD) (t : Fin cfg0.N) :
    (dats m 0 c).flushed 5 t = ((cfg0.win 5).blk t).view.read (Elt Ideal) (stateOf m c) := by
  obtain ⟨-, -, -, -, -, -, -, -, -, -, -, -, -, -, hI, hJ⟩ := tile_facts t
  rw [Value.flushed5]
  funext y
  obtain ⟨p, q, rfl⟩ : ∃ (p : Fin 256) (q : Fin 512), y = ix2 p q := ⟨y 0, y 1, eq_ix2 y⟩
  have hp := p.isLt; have hq := q.isLt
  show out0_5 (F := Ideal) (iblk m c 0 t) (iblk m c 1 t) (iblk m c 2 t) (iblk m c 3 t) (iblk m c 4 t) (ix2 p q)
    = stateOf m c (((cfg0.win 5).blk t).view.emb (ix2 p q))
  have hemb : ((cfg0.win 5).blk t).view.emb (ix2 p q)
      = ix2 (⟨win0_5.index t (0 : Fin 2) * 256 + p.val, by omega⟩ : Fin 4096) (⟨win0_5.index t (1 : Fin 2) * 512 + q.val, by omega⟩ : Fin 2048) := by
    funext a; apply Fin.ext
    match a with
    | ⟨0, _⟩ => show win0_5.index t (0 : Fin 2) * 256 + 1 * p.val = win0_5.index t (0 : Fin 2) * 256 + p.val; omega
    | ⟨1, _⟩ => show win0_5.index t (1 : Fin 2) * 512 + 1 * q.val = win0_5.index t (1 : Fin 2) * 512 + q.val; omega
  rw [hemb]
  exact tile_state m c t p q _ _ rfl rfl

/-- Tile `t` writes back block `t` of the new cell. -/
theorem flushed_cell (c : Dev nD) (t : Fin cfg0.N) :
    (dats m 0 c).flushed 6 t = ((cfg0.win 6).blk t).view.read (Elt Ideal) (cellOf m c) := by
  obtain ⟨-, -, -, -, -, -, -, -, -, -, -, -, e0, e1, hI, hJ⟩ := tile_facts t
  rw [Value.flushed6]
  funext y
  obtain ⟨p, q, rfl⟩ : ∃ (p : Fin 256) (q : Fin 512), y = ix2 p q := ⟨y 0, y 1, eq_ix2 y⟩
  have hp := p.isLt; have hq := q.isLt
  show out0_6 (F := Ideal) (iblk m c 0 t) (iblk m c 1 t) (iblk m c 2 t) (iblk m c 3 t) (iblk m c 4 t) (ix2 p q)
    = cellOf m c (((cfg0.win 6).blk t).view.emb (ix2 p q))
  have hemb : ((cfg0.win 6).blk t).view.emb (ix2 p q)
      = ix2 (⟨win0_5.index t (0 : Fin 2) * 256 + p.val, by omega⟩ : Fin 4096) (⟨win0_5.index t (1 : Fin 2) * 512 + q.val, by omega⟩ : Fin 2048) := by
    funext a; apply Fin.ext
    match a with
    | ⟨0, _⟩ => show win0_6.index t (0 : Fin 2) * 256 + 1 * p.val = win0_5.index t (0 : Fin 2) * 256 + p.val; omega
    | ⟨1, _⟩ => show win0_6.index t (1 : Fin 2) * 512 + 1 * q.val = win0_5.index t (1 : Fin 2) * 512 + q.val; omega
  rw [hemb]
  exact tile_cell m c t p q _ _ rfl rfl

/-! ## The blocks tile the arrays -/

/-- An entry is in tile `t`'s state block iff each coordinate is in the block's range. -/
theorem mem_state_blk (t : Fin cfg0.N) (i : S4096x2048.Idx) :
    i ∈ ((cfg0.win 5).blk t).view.set ↔ ∀ a : Fin 2, win0_5.index t a * S256x512.size a ≤ (i a).val ∧ (i a).val < win0_5.index t a * S256x512.size a + S256x512.size a := by
  show i ∈ ((View.whole main_v10_0).slice (win0_5.rect t)).set ↔ _
  rw [View.set_slice_whole, Rect.mem_set_unit]
  exact Iff.rfl

/-- The same for the cell blocks. -/
theorem mem_cell_blk (t : Fin cfg0.N) (i : S4096x2048.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v10_1).slice (win0_6.rect t)).set ↔ _
  rw [View.set_slice_whole, Rect.mem_set_unit]
  exact Iff.rfl

/-- Every entry of the state array is in the block of the tile with `I = b / 256`, `J = h / 512`. -/
theorem cover_state (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  obtain ⟨t, ht⟩ := tile_onto ⟨(i 0).val / 256, by omega⟩ ⟨(i 1).val / 512, by omega⟩
  have q0 : win0_5.index t (0 : Fin 2) = (i 0).val / 256 := congrFun ht 0
  have q1 : win0_5.index t (1 : Fin 2) = (i 1).val / 512 := congrFun ht 1
  refine ⟨t, flush0_5 t, ?_⟩
  rw [mem_state_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 512 ≤ (i 1).val ∧ (i 1).val < win0_5.index t (1 : Fin 2) * 512 + 512; omega

/-- The same for the cell array. -/
theorem cover_cell (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := tile_onto ⟨(i 0).val / 256, by omega⟩ ⟨(i 1).val / 512, by omega⟩
  have q0 : win0_5.index t (0 : Fin 2) = (i 0).val / 256 := congrFun ht 0
  have q1 : win0_5.index t (1 : Fin 2) = (i 1).val / 512 := congrFun ht 1
  obtain ⟨-, -, -, -, -, -, -, -, -, -, -, -, e0, e1, -⟩ := tile_facts t
  refine ⟨t, flush0_6 t, ?_⟩
  rw [mem_cell_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 512 ≤ (i 1).val ∧ (i 1).val < win0_6.index t (1 : Fin 2) * 512 + 512; omega

/-! ## The arrays after the last tile, and the run -/

/-- The first result array ends holding the new state. -/
theorem final_state (c : Dev nD) : (dats m 0 c).arrAt 5 cfg0.N = stateOf m c :=
  (dats m 0 c).arrAt_eq_of_cover 5 (stateOf m c) (fun t _ => flushed_state m c t) cover_state

/-- The second result array ends holding the new cell. -/
theorem final_cell (c : Dev nD) : (dats m 0 c).arrAt 6 cfg0.N = cellOf m c :=
  (dats m 0 c).arrAt_eq_of_cover 6 (cellOf m c) (fun t _ => flushed_cell m c t) cover_cell

/-- Every weakly fair execution of the tiled program ends with the new state and the new cell in its two result
    arrays and the five arguments unchanged. -/
theorem run : θ_run defs (onTc (τ := τ) (main (F := Ideal))) ⟨m, fun _ => 0, ρ⟩ fun r => ∀ c : Dev nD,
      r.2.mem ((c : Thread nD τ).loc main_v10_0) = stateOf m c
      ∧ r.2.mem ((c : Thread nD τ).loc main_v10_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_state m c), (h c).2.1.trans (final_cell m c), (h c).2.2⟩)
    (Value.run_blocks m ρ)

end Cert.KernelIdeal.Whole

end
-- ==== Proof.RefCell.lean ====
/-
  The reference computes the cell.

  The reference contracts each gate's weights with the input and with the state over the features, lays both products
  out as (gate, row, hidden unit), adds them, and takes the four gates as slices; so the slice of gate `g` at `(b, h)` is
  `pre g b h` once each product's factors are swapped (multiplication on the extended reals commutes). Its sigmoids are
  spelt one over one plus the exponential of the negation, its clips a maximum then a minimum; element by element the two
  results are `newStateAt` and `newCellAt`.
-/
import proofs.«109041_j51969104281664_2_alg».proof.Proof.Gen.ReferenceIdeal.Read
import proofs.«109041_j51969104281664_2_alg».proof.Proof.Spec

noncomputable section

namespace Cert.ReferenceIdeal.AsCell

open Cert.ReferenceIdeal Cert.ReferenceIdeal.Gen Cert.ReferenceIdeal.Read Cert.LstmCell
open Idealize.ShloMosaic Idealize.ShloMosaic.ValueIdx

variable (x0 x1 x2 : (⟨S4096x2048, .f32⟩ : BufTy).Contents (Elt Ideal)) (x3 x4 : (⟨S4x2048x2048, .f32⟩ : BufTy).Contents (Elt Ideal))

/-- The added products at `(g, b, h)` are gate `g`'s pre-activation. -/
theorem gates_apply (g : Fin 4) (b : Fin 4096) (h : Fin 2048) :
    val_main_v4 (F := Ideal) x0 x1 x3 x4 (ix3 g b h) = pre x0 x1 x3 x4 g b h := by
  rw [val_main_v4_apply, val_main_v1_apply, val_main_v3_apply, val_main_v0_apply, val_main_v2_apply]
  unfold pre
  show (∑ k : Fin 2048, x3 (lidx_main_v0 (idx_main_v1 (ix3 g b h)) k) * x0 (ridx_main_v0 (idx_main_v1 (ix3 g b h)) k))
      + (∑ k : Fin 2048, x4 (lidx_main_v2 (idx_main_v3 (ix3 g b h)) k) * x1 (ridx_main_v2 (idx_main_v3 (ix3 g b h)) k)) = _
  have el : ∀ k : Fin 2048, lidx_main_v0 (idx_main_v1 (ix3 g b h)) k = ix3 g h k := fun k =>
    funext fun a => Fin.ext (by match a with | ⟨0, _⟩ => rfl | ⟨1, _⟩ => rfl | ⟨2, _⟩ => rfl)
  have er : ∀ k : Fin 2048, ridx_main_v0 (idx_main_v1 (ix3 g b h)) k = ix2 b k := fun k =>
    funext fun a => Fin.ext (by match a with | ⟨0, _⟩ => rfl | ⟨1, _⟩ => rfl)
  have el' : ∀ k : Fin 2048, lidx_main_v2 (idx_main_v3 (ix3 g b h)) k = ix3 g h k := fun k =>
    funext fun a => Fin.ext (by match a with | ⟨0, _⟩ => rfl | ⟨1, _⟩ => rfl | ⟨2, _⟩ => rfl)
  have er' : ∀ k : Fin 2048, ridx_main_v2 (idx_main_v3 (ix3 g b h)) k = ix2 b k := fun k =>
    funext fun a => Fin.ext (by match a with | ⟨0, _⟩ => rfl | ⟨1, _⟩ => rfl)
  congr 1
  · refine Finset.sum_congr rfl fun k _ => ?_
    rw [el, er, mul_comm]
  · refine Finset.sum_congr rfl fun k _ => ?_
    rw [el', er', mul_comm]

/-- Where the merged `(b, h)` sits in the one-gate slice. -/
theorem unmerge (b : Fin 4096) (h : Fin 2048) :
    (b.val * 2048 + h.val) / 2048 % 4096 = b.val ∧ (b.val * 2048 + h.val) % 2048 = h.val := by
  have hb := b.isLt; have hh := h.isLt; omega

/-- The forget gate's slice. -/
theorem gate0_apply (b : Fin 4096) (h : Fin 2048) : val_main_v6 (F := Ideal) x0 x1 x3 x4 (ix2 b h) = pre x0 x1 x3 x4 0 b h := by
  rw [val_main_v6_apply, val_main_v5_apply, ← gates_apply]
  congr 1; funext a; apply Fin.ext
  match a with
  | ⟨0, _⟩ => rfl
  | ⟨1, _⟩ => exact (unmerge b h).1
  | ⟨2, _⟩ => exact (unmerge b h).2

/-- The input gate's slice. -/
theorem gate1_apply (b : Fin 4096) (h : Fin 2048) : val_main_v14 (F := Ideal) x0 x1 x3 x4 (ix2 b h) = pre x0 x1 x3 x4 1 b h := by
  rw [val_main_v14_apply, val_main_v13_apply, ← gates_apply]
  congr 1; funext a; apply Fin.ext
  match a with
  | ⟨0, _⟩ => rfl
  | ⟨1, _⟩ => exact (unmerge b h).1
  | ⟨2, _⟩ => exact (unmerge b h).2

/-- The output gate's slice. -/
theorem gate2_apply (b : Fin 4096) (h : Fin 2048) : val_main_v22 (F := Ideal) x0 x1 x3 x4 (ix2 b h) = pre x0 x1 x3 x4 2 b h := by
  rw [val_main_v22_apply, val_main_v21_apply, ← gates_apply]
  congr 1; funext a; apply Fin.ext
  match a with
  | ⟨0, _⟩ => rfl
  | ⟨1, _⟩ => exact (unmerge b h).1
  | ⟨2, _⟩ => exact (unmerge b h).2

/-- The update gate's slice. -/
theorem gate3_apply (b : Fin 4096) (h : Fin 2048) : val_main_v30 (F := Ideal) x0 x1 x3 x4 (ix2 b h) = pre x0 x1 x3 x4 3 b h := by
  rw [val_main_v30_apply, val_main_v29_apply, ← gates_apply]
  congr 1; funext a; apply Fin.ext
  match a with
  | ⟨0, _⟩ => rfl
  | ⟨1, _⟩ => exact (unmerge b h).1
  | ⟨2, _⟩ => exact (unmerge b h).2

/-- The forget gate's sigmoid. -/
theorem sig0_apply (b : Fin 4096) (h : Fin 2048) :
    val_main_v12 (F := Ideal) x0 x1 x3 x4 (ix2 b h) = Ideal.logistic (pre x0 x1 x3 x4 0 b h) := by
  rw [val_main_v12_apply, val_main_v11_apply, val_main_cst_0_apply, val_main_v10_apply, val_main_v9_apply, val_main_cst_apply,
    val_main_v8_apply, val_main_v7_apply, gate0_apply]
  exact host_sigmoid _

/-- The input gate's sigmoid. -/
theorem sig1_apply (b : Fin 4096) (h : Fin 2048) :
    val_main_v20 (F := Ideal) x0 x1 x3 x4 (ix2 b h) = Ideal.logistic (pre x0 x1 x3 x4 1 b h) := by
  rw [val_main_v20_apply, val_main_v19_apply, val_main_cst_2_apply, val_main_v18_apply, val_main_v17_apply, val_main_cst_1_apply,
    val_main_v16_apply, val_main_v15_apply, gate1_apply]
  exact host_sigmoid _

/-- The output gate's sigmoid. -/
theorem sig2_apply (b : Fin 4096) (h : Fin 2048) :
    val_main_v28 (F := Ideal) x0 x1 x3 x4 (ix2 b h) = Ideal.logistic (pre x0 x1 x3 x4 2 b h) := by
  rw [val_main_v28_apply, val_main_v27_apply, val_main_cst_4_apply, val_main_v26_apply, val_main_v25_apply, val_main_cst_3_apply,
    val_main_v24_apply, val_main_v23_apply, gate2_apply]
  exact host_sigmoid _

/-- The update gate, clipped. -/
theorem clip3_apply (b : Fin 4096) (h : Fin 2048) :
    val_main_v31 (F := Ideal) x0 x1 x3 x4 (ix2 b h) = clip (pre x0 x1 x3 x4 3 b h) := by
  rw [val_main_v31_apply, val_main_call0_v4_apply, val_main_call0_v3_apply, val_main_cst_6_apply, val_main_call0_v2_apply,
    val_main_call0_v1_apply, val_main_call0_v0_apply, val_main_cst_5_apply, gate3_apply]
  rfl

/-- The reference's new cell, element by element. -/
theorem cell_apply (b : Fin 4096) (h : Fin 2048) :
    val_main_v34 (F := Ideal) x0 x1 x2 x3 x4 (ix2 b h) = newCellAt x0 x1 x2 x3 x4 b h := by
  rw [val_main_v34_apply, val_main_v32_apply, val_main_v33_apply, sig0_apply, sig1_apply, clip3_apply]
  rfl

/-- The reference's new state, element by element. -/
theorem state_apply (b : Fin 4096) (h : Fin 2048) :
    val_main_v36 (F := Ideal) x0 x1 x2 x3 x4 (ix2 b h) = newStateAt x0 x1 x2 x3 x4 b h := by
  rw [val_main_v36_apply, sig2_apply, val_main_v35_apply, val_main_call1_v4_apply, val_main_call1_v3_apply, val_main_cst_8_apply,
    val_main_call1_v2_apply, val_main_call1_v1_apply, val_main_call1_v0_apply, val_main_cst_7_apply, cell_apply]
  rfl

/-- The reference's second result is the new cell. -/
theorem cell_eq : val_main_v34 (F := Ideal) x0 x1 x2 x3 x4 = newCell x0 x1 x2 x3 x4 := by
  funext i
  obtain ⟨b, h, rfl⟩ : ∃ (b : Fin 4096) (h : Fin 2048), i = ix2 b h := ⟨i 0, i 1, eq_ix2 i⟩
  exact cell_apply x0 x1 x2 x3 x4 b h

/-- The reference's first result is the new state. -/
theorem state_eq : val_main_v36 (F := Ideal) x0 x1 x2 x3 x4 = newState x0 x1 x2 x3 x4 := by
  funext i
  obtain ⟨b, h, rfl⟩ : ∃ (b : Fin 4096) (h : Fin 2048), i = ix2 b h := ⟨i 0, i 1, eq_ix2 i⟩
  exact state_apply x0 x1 x2 x3 x4 b h

end Cert.ReferenceIdeal.AsCell

end
-- ==== Proof.lean ====
/-
  A tiled cell of a long short-term memory network against its plain formulation.

  The program under proof narrows the input and the state, re-tiles the two weight stacks by hidden-unit block, and
  sweeps a 4 × 16 grid of tiles; each tile multiplies 256 rows of the input and of the state with the four gates' rows of
  one block of 512 hidden units (two products, all four gates at once), adds them, and applies the sigmoids and the
  clips to the four column slices. The reference contracts the whole arrays gate by gate. On the extended reals both
  compute, at row `b` and hidden unit `h`,

      newCell  = σ(pre 0) · cell + σ(pre 1) · clip (pre 3),      newState = σ(pre 2) · clip newCell,
      pre g    = ∑ k, x (b, k) · W_in (g, h, k) + ∑ k, state (b, k) · W_h (g, h, k)

  (Proof/Spec.lean): narrowing is the identity there, the re-tiling only moves entries (Proof/Relayout.lean), a tile's
  product sum at column `g · 512 + q` is gate `g` (Proof/BlockGates.lean, Proof/KernelArrays.lean, Proof/TileCell.lean), the
  64 blocks tile the result arrays (Proof/WholeArrays.lean), and the reference's sums are the same sums with each
  product's factors swapped (Proof/RefCell.lean). No step needs the inputs to be finite: only commutativity of the
  product is used, which holds at the infinities too.

  The three programs' runs are the generated ones; the idealization rewrote no operation, so it is preserved trivially.
-/
import proofs.«109041_j51969104281664_2_alg».proof.Defs
import proofs.«109041_j51969104281664_2_alg».proof.Proof.Gen.Kernel
import proofs.«109041_j51969104281664_2_alg».proof.Proof.Gen.Kernel.Skeleton
import proofs.«109041_j51969104281664_2_alg».proof.Proof.Gen.Kernel.Launch
import proofs.«109041_j51969104281664_2_alg».proof.Proof.Gen.Kernel.Points
import proofs.«109041_j51969104281664_2_alg».proof.Proof.Gen.Kernel.Frame
import proofs.«109041_j51969104281664_2_alg».proof.Proof.Gen.KernelIdeal
import proofs.«109041_j51969104281664_2_alg».proof.Proof.Gen.KernelIdeal.Skeleton
import proofs.«109041_j51969104281664_2_alg».proof.Proof.Gen.KernelIdeal.Launch
import proofs.«109041_j51969104281664_2_alg».proof.Proof.Gen.KernelIdeal.Points
import proofs.«109041_j51969104281664_2_alg».proof.Proof.Gen.KernelIdeal.Frame
import proofs.«109041_j51969104281664_2_alg».proof.Proof.Gen.ReferenceIdeal
import proofs.«109041_j51969104281664_2_alg».proof.Proof.Gen.Pre_finite_inputs
import proofs.«109041_j51969104281664_2_alg».proof.Proof.Gen.KernelIdeal.Value
import proofs.«109041_j51969104281664_2_alg».proof.Proof.Gen.ReferenceIdeal.Run
import proofs.«109041_j51969104281664_2_alg».proof.Proof.Gen.ReferenceIdeal.Read
import proofs.«109041_j51969104281664_2_alg».proof.Proof.WholeArrays
import proofs.«109041_j51969104281664_2_alg».proof.Proof.RefCell
import Idealize.ShloMosaic.Adequacy
import Idealize.ShloMosaic.Init

noncomputable section

namespace Cert.Proof

open Idealize.ShloMosaic Idealize.SL.Sem

/-- The tiled program as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference's run with its two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- No operation was rewritten. -/
theorem preserves : Cert.preserves_Kernel_KernelIdeal := trivial

/-- From memories agreeing on the five arguments both programs end with the new state and the new cell of those
    arguments in their two results. -/
theorem algebraic : Cert.algebraic_KernelIdeal_ReferenceIdeal := by
  intro m ρ m' ρ' _ hagree
  refine ⟨fun c => Cert.KernelIdeal.Whole.stateOf m c, fun c => Cert.KernelIdeal.Whole.cellOf m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v36_eq, Cert.ReferenceIdeal.AsCell.state_eq,
      (hagree c).1, (hagree c).2.1, (hagree c).2.2.1, (hagree c).2.2.2.1, (hagree c).2.2.2.2]
  · rw [Cert.ReferenceIdeal.Read.val_main_v34_eq, Cert.ReferenceIdeal.AsCell.cell_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
